-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x4096 : Shape := ⟨2, ![1024, 4096]⟩
abbrev S4096x1024 : Shape := ⟨2, ![4096, 1024]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S1024x4096 .f32) (main_arg2 : FVec F S4096x1024 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S1024x4096 : Shape := ⟨2, ![1024, 4096]⟩
abbrev S4096x1024 : Shape := ⟨2, ![4096, 1024]⟩
abbrev S4096 : Shape := ⟨1, ![4096]⟩
abbrev S1x4096 : Shape := ⟨2, ![1, 4096]⟩
abbrev S8192x1024 : Shape := ⟨2, ![8192, 1024]⟩
abbrev S128x128 : Shape := ⟨2, ![128, 128]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩
abbrev S256x1024 : Shape := ⟨2, ![256, 1024]⟩
abbrev S256x4096 : Shape := ⟨2, ![256, 4096]⟩

abbrev nBuf : Space → Nat
  | .hbm => 21
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S4096x1024, .bf16⟩
  | .hbm, ⟨6, _⟩ => ⟨S1024x4096, .f32⟩
  | .hbm, ⟨7, _⟩ => ⟨S1024x4096, .bf16⟩
  | .hbm, ⟨8, _⟩ => ⟨S1x4096, .f32⟩
  | .hbm, ⟨9, _⟩ => ⟨S8192x1024, .f32⟩
  | .hbm, ⟨10, _⟩ => ⟨S128x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S8x128, .f32⟩
  | .local _ .vmem, ⟨7, _⟩ => ⟨S256x1024, .f32⟩
  | .local _ .vmem, ⟨8, _⟩ => ⟨S256x1024, .f32⟩
  | .local _ .vmem, ⟨9, _⟩ => ⟨S1x1, .f32⟩
  | .local _ .vmem, ⟨10, _⟩ => ⟨S1024x4096, .bf16⟩
  | .local _ .vmem, ⟨11, _⟩ => ⟨S1x4096, .f32⟩
  | .local _ .vmem, ⟨12, _⟩ => ⟨S256x4096, .f32⟩
  | .local _ .vmem, ⟨13, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S1024x4096_S4096x1024_1_0 : S1024x4096.Transposes [1, 0] S4096x1024
  bitsLt_bf16_f32 : FTy.bits .bf16 < FTy.bits .f32
  transposes_S4096x1024_S1024x4096_1_0 : S4096x1024.Transposes [1, 0] S1024x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S512x4096_S4096x1024_S512x1024_1_0_0_1_n_n_wf : DotDims.WF S512x4096 S4096x1024 S512x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S1024x4096.size a
  hwx1_2 : ∀ i : grid1.Coords, EltTy.bits .bf16 = 32 ∨ (Rect.block (s := S1024x4096) S1024x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S8192x4096.size a
  hwx1_4 : ∀ i : grid1.Coords, EltTy.bits .f32 = 32 ∨ (Rect.block (s := S8192x4096) S256x4096.size (cc1_transform_4 i) (hinb1_4 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S1024x4096 : Shape := ⟨2, ![1024, 4096]⟩
abbrev S4096x1024 : Shape := ⟨2, ![4096, 1024]⟩
abbrev S4096 : Shape := ⟨1, ![4096]⟩
abbrev S8192x1024 : Shape := ⟨2, ![8192, 1024]⟩
abbrev S_ : Shape := ⟨0, ![]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  transposes_S1024x4096_S4096x1024_1_0 : S1024x4096.Transposes [1, 0] S4096x1024
  reducesTo_S8192x1024_S_d0_1 : S8192x1024.ReducesTo [0, 1] S_
  h_S_ : 0 < S_.numel
  bcast_S_S8192x1024 : S_.BroadcastsInDim S8192x1024 (![] : Fin 0 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelRun.lean ====
/-
  The idealized kernel's run, read back: the program is a stretch of host operations, a first launch (the
  blocked product and each block's largest absolute entry), a second stretch (the scale from those maxima),
  and a second launch (quantise, multiply, rescale, add the bias). The buffer contents at each of the four
  boundaries are a fold from the launch memory (`W0 … W4` of the frame module). Every weakly fair execution
  ends with EVERY buffer that outlives the launches at the last boundary's contents `W4`; in particular the
  result buffer, and the four arguments, which no boundary changes.
-/
import proofs.«113571_j23596550324368_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the launches at
    the contents of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The same run with the result buffer and the four arguments read off the last boundary: the result holds what
    the second launch's write-backs leave, and each argument what it was launched with. -/
theorem run_result : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_all m ρ)

end Cert.KernelIdeal.Run

end
-- ==== Proof.Boundaries.lean ====
/-
  What each launch finds in its arrays, read back to the arguments. Before the first launch the host transposes
  the two weight matrices (the change of float format that follows is the identity on the extended reals) and
  views the bias as a row. Between the launches it reduces the array of per-block maxima to one number and forms
  the scale from it; nothing else is touched, so the second launch finds the first product as the first launch
  left it, and the transposed second weight and the bias row as the first stretch left them.
-/
import proofs.«113571_j23596550324368_2_alg».proof.Proof.Gen.KernelIdeal.Frame
import Idealize.ShloMosaic.Lib.StableHlo.Run

set_option maxRecDepth 16384

noncomputable section

namespace Cert.KernelIdeal.Bdry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first launch's inputs -/

/-- The activations reach the first launch as launched. -/
theorem V1_arg0 (c : Dev nD) : V1 m ρ c main_arg0 = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

/-- The first weight reaches the first launch transposed. -/
theorem V1_v1 (c : Dev nD) : (V1 m ρ c main_v1 : S4096x1024.Idx → Elt F .bf16)
    = truncf .bf16 (transpose S4096x1024 [1, 0] (m ((c : Thread nD τ).loc main_arg1)) transposes_S1024x4096_S4096x1024_1_0) bitsLt_bf16_f32 := by
  show StableHlo.after hostOps0 (fun b => m (c, b)) (Proc.devRef .tc main_v1) = _
  after_results <;> rfl

/-! ## The second launch's inputs -/

/-- The scale the host forms from the array of per-block maxima: their maximum, times one, raised to the floor if
    below it, divided by three. -/
def scaleOf (T : S128x128.Idx → F .f32) : S_.Idx → F .f32 :=
  Host.divf (maximumf (mulf (Host.reduce FloatOps.maximumf T (constant S_ .f32 0xFF800000#32) reducesTo_S128x128_S_d0_1 h_S_)
    (constant S_ .f32 0x3F800000#32)) (constant S_ .f32 0x322BCC77#32)) (constant S_ .f32 0x40400000#32)

/-- After the second stretch the scale's 1 × 1 array holds the scale formed from whatever the array of maxima held. -/
theorem after_scale (X : Valuation τ sig (Elt F)) :
    (StableHlo.after hostOps1 X (Proc.devRef .tc main_v10) : S1x1.Idx → Elt F .f32)
      = shapeCast S1x1 (scaleOf (X (Proc.devRef .tc main_v5_1))) shapeCasts_S_S1x1 := by
  after_results <;> rfl

/-- The second launch finds the scale formed from the maxima the first launch left. -/
theorem V3_v10 (c : Dev nD) : (V3 m ρ c main_v10 : S1x1.Idx → Elt F .f32)
    = shapeCast S1x1 (scaleOf ((dat0 (V1 m ρ) c).arrAt 3 cfg0.N)) shapeCasts_S_S1x1 :=
  (after_scale (W2 m ρ c)).trans (congrArg (fun T => shapeCast S1x1 (scaleOf T) shapeCasts_S_S1x1) (W2_arr m ρ c 3))

/-- The second launch finds the product as the first launch left it. -/
theorem V3_v5_0 (c : Dev nD) : V3 m ρ c main_v5_0 = (dat0 (V1 m ρ) c).arrAt 2 cfg0.N :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_v5_0) = W2 m ρ c (Proc.devRef .tc main_v5_0))).trans (W2_arr m ρ c 2)

/-- After the first stretch the second weight's buffer holds the second weight transposed. -/
theorem after_v3 (X : Valuation τ sig (Elt F)) :
    (StableHlo.after hostOps0 X (Proc.devRef .tc main_v3) : S1024x4096.Idx → Elt F .bf16)
      = truncf .bf16 (transpose S1024x4096 [1, 0] (X (Proc.devRef .tc main_arg2)) transposes_S4096x1024_S1024x4096_1_0) bitsLt_bf16_f32 := by
  after_results <;> rfl

/-- The second launch finds the second weight transposed. -/
theorem V3_v3 (c : Dev nD) : (V3 m ρ c main_v3 : S1024x4096.Idx → Elt F .bf16)
    = truncf .bf16 (transpose S1024x4096 [1, 0] (m ((c : Thread nD τ).loc main_arg2)) transposes_S4096x1024_S1024x4096_1_0) bitsLt_bf16_f32 :=
  calc W3 m ρ c (Proc.devRef .tc main_v3)
    _ = W2 m ρ c (Proc.devRef .tc main_v3) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)
    _ = _ := after_v3 (W0 m ρ c)

/-- After the first stretch the bias row's buffer holds the bias viewed as one row. -/
theorem after_v4 (X : Valuation τ sig (Elt F)) :
    (StableHlo.after hostOps0 X (Proc.devRef .tc main_v4) : S1x4096.Idx → Elt F .f32)
      = shapeCast S1x4096 (X (Proc.devRef .tc main_arg3)) shapeCasts_S4096_S1x4096 := by
  after_results <;> rfl

/-- The second launch finds the bias as one row. -/
theorem V3_v4 (c : Dev nD) : (V3 m ρ c main_v4 : S1x4096.Idx → Elt F .f32)
    = shapeCast S1x4096 (m ((c : Thread nD τ).loc main_arg3)) shapeCasts_S4096_S1x4096 :=
  calc W3 m ρ c (Proc.devRef .tc main_v4)
    _ = W2 m ρ c (Proc.devRef .tc main_v4) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v4) := W2_of_ne m ρ c main_v4 (by decide)
    _ = _ := after_v4 (W0 m ρ c)

end Cert.KernelIdeal.Bdry

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Payloads.lean ====
/-
  What each launch's body computes, entry by entry, on the extended reals.
  First launch: a block of 512 rows of the activations times the whole transposed first weight; entry (p, q) is the
  sum over k of x (p, k) · b (k, q). The second payload takes the absolute values of that block, their maximum along
  each row, then the maximum of those down the column, and spreads the one number over an 8 × 128 tile.
-/
import proofs.«113571_j23596550324368_2_alg».proof.Proof.Gen.KernelIdeal.Skeleton
import proofs.«113571_j23596550324368_2_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Pay

open Cert.KernelIdeal Cert.KernelIdeal.Gen
open Idealize.ShloMosaic Idealize.ShloMosaic.ValueIdx

/-- The first launch's contraction record is the plain one: rows by columns. -/
theorem dot0_eq : dot_S512x4096_S4096x1024_S512x1024_1_0_0_1_n_n = DotDims.plain 512 4096 1024 := rfl

/-- The second launch's contraction record is the plain one too. -/
theorem dot1_eq : dot_S256x1024_S1024x4096_S256x4096_1_0_0_1_n_n = DotDims.plain 256 1024 4096 := rfl

/-- Entry (p, q) of the first launch's product block. -/
theorem pay1_apply (x0 : FVec Ideal S512x4096 .f32) (x1 : FVec Ideal S4096x1024 .bf16) (p : Fin 512) (q : Fin 1024) :
    k0_pay1 (F := Ideal) x0 x1 (ix2 p q) = ∑ k : Fin 4096, x0 (ix2 p k) * x1 (ix2 k q) := by
  unfold k0_pay1
  rw [shapeCast_self, dot0_eq]
  exact Cert.PlainMatmul.matmul_zero_apply 512 4096 1024 none _ x1 p q

/-! ## The first launch's second payload: the block's largest absolute entry -/

/-- The common initial value of every maximum in the two programs. -/
abbrev negInf : Ideal .f32 := FloatOps.ofBits (F := Ideal) .f32 0xFF800000#32

/-- A maximum along one axis from the common initial value, as a fold over that axis's coordinates; the two proof
    arguments are whatever the printed operation carries. -/
theorem max_single {s t : Shape} {a : Fin s.rank} (src : FVec Ideal s .f32) (h : s.Reduces [a] t)
    (hφ : FKind.Formats .f32) (hacc : (0xFF800000#32 : BitVec (FTy.bits .f32)) = FKind.maximumf.neutral .f32 hφ) (j : t.Idx) :
    multiReduction .maximumf [a] t src 0xFF800000#32 h hφ hacc j
      = (Finset.univ : Finset (Fin (s.size a))).fold max negInf (src ∘ h.lift j) :=
  Ideal.multiReduction_maximumf_single src _ h hφ hacc j

/-- Putting the dropped column back into a row index gives the entry's index. -/
theorem lift_cols (r : Fin 512) (q : Fin 1024) : reduces_S512x1024_S512.lift (ix1 r) q = ix2 r q :=
  funext fun c => Fin.ext (by match c with | ⟨0, _⟩ => rfl | ⟨1, _⟩ => rfl)

/-- Putting the dropped row back into the single column index gives the row's index. -/
theorem lift_rows (r : Fin 512) : reduces_S512x1_S1.lift (ix1 (0 : Fin 1)) r = ix2 r (0 : Fin 1) :=
  funext fun c => Fin.ext (by match c with | ⟨0, _⟩ => rfl | ⟨1, _⟩ => rfl)

/-- Each row's maximum: the fold of max along the row. -/
theorem rowMax_apply (v6 : FVec Ideal S512x1024 .f32) (hφ : FKind.Formats .f32)
    (hacc : (0xFF800000#32 : BitVec (FTy.bits .f32)) = FKind.maximumf.neutral .f32 hφ) (r : Fin 512) :
    multiReduction .maximumf [1] S512 v6 0xFF800000#32 reduces_S512x1024_S512 hφ hacc (ix1 r)
      = (Finset.univ : Finset (Fin 1024)).fold max negInf fun q => v6 (ix2 r q) :=
  (max_single v6 reduces_S512x1024_S512 hφ hacc (ix1 r)).trans
    (congrArg (fun f => Finset.fold max negInf f (Finset.univ : Finset (Fin 1024))) (funext fun q => congrArg v6 (lift_cols r q)))

/-- The row maxima stood up as a column: row r of the column is entry r. -/
theorem column_apply (v7 : FVec Ideal S512 .f32) (r : Fin 512) :
    shapeCast S512x1 v7 shapeCasts_S512_S512x1 (ix2 r (0 : Fin 1)) = v7 (ix1 r) :=
  shapeCast_apply v7 shapeCasts_S512_S512x1 (ix2 r (0 : Fin 1)) (ix1 r) (by
    rw [Shape.rowMajor_val_two, Shape.rowMajor_val_one]
    show r.val = r.val * 1 + 0
    omega)

/-- The maximum down the column: the fold of max over the rows. -/
theorem colMax_apply (v8 : FVec Ideal S512x1 .f32) (hφ : FKind.Formats .f32)
    (hacc : (0xFF800000#32 : BitVec (FTy.bits .f32)) = FKind.maximumf.neutral .f32 hφ) :
    multiReduction .maximumf [0] S1 v8 0xFF800000#32 reduces_S512x1_S1 hφ hacc (ix1 (0 : Fin 1))
      = (Finset.univ : Finset (Fin 512)).fold max negInf fun r => v8 (ix2 r (0 : Fin 1)) :=
  (max_single v8 reduces_S512x1_S1 hφ hacc (ix1 (0 : Fin 1))).trans
    (congrArg (fun f => Finset.fold max negInf f (Finset.univ : Finset (Fin 512))) (funext fun r => congrArg v8 (lift_rows r)))

/-- The one number viewed as a 1 × 1 array. -/
theorem one_apply (v9 : FVec Ideal S1 .f32) :
    shapeCast S1x1 v9 shapeCasts_S1_S1x1 (ix2 (0 : Fin 1) (0 : Fin 1)) = v9 (ix1 (0 : Fin 1)) :=
  shapeCast_apply v9 shapeCasts_S1_S1x1 (ix2 (0 : Fin 1) (0 : Fin 1)) (ix1 (0 : Fin 1)) (by
    rw [Shape.rowMajor_val_two, Shape.rowMajor_val_one]; rfl)

/-- The 1 × 1 array spread over an 8 × 128 tile: every entry is the one number. -/
theorem spread_apply (v11 : FVec Ideal S1x1 .f32) (a : Fin 8) (b : Fin 128) :
    broadcastTo S8x128 v11 broadcasts_S1x1_S8x128 (ix2 a b) = v11 (ix2 (0 : Fin 1) (0 : Fin 1)) :=
  broadcastTo_apply v11 broadcasts_S1x1_S8x128 (ix2 a b) (ix2 (0 : Fin 1) (0 : Fin 1))
    (fun ax => by match ax with | ⟨0, _⟩ => rfl | ⟨1, _⟩ => rfl)

/-- The largest absolute entry of a 512 × 1024 block, rows first: the maximum over the rows of each row's maximum. -/
def blockMax (P : FVec Ideal S512x1024 .f32) : EReal :=
  (Finset.univ : Finset (Fin 512)).fold max negInf fun r =>
    (Finset.univ : Finset (Fin 1024)).fold max negInf fun q => FloatOps.absf (P (ix2 r q))

/-- Every entry of the 8 × 128 tile the first launch writes beside a product block is that block's largest
    absolute entry. -/
theorem pay2_apply (x0 : FVec Ideal S512x4096 .f32) (x1 : FVec Ideal S4096x1024 .bf16) (a : Fin 8) (b : Fin 128) :
    k0_pay2 (F := Ideal) x0 x1 (ix2 a b) = blockMax (k0_pay1 (F := Ideal) x0 x1) := by
  unfold k0_pay2
  dsimp only
  generalize k0_pay1 (F := Ideal) x0 x1 = P
  refine (spread_apply _ a b).trans ?_
  refine (congrFun (shapeCast_self _ shapeCasts_S1x1_S1x1) _).trans ?_
  refine (one_apply _).trans ?_
  refine (colMax_apply _ _ _).trans ?_
  unfold blockMax
  refine congrArg (fun f => Finset.fold max negInf f (Finset.univ : Finset (Fin 512))) (funext fun r => ?_)
  refine (column_apply _ r).trans ?_
  exact rowMax_apply (absf P) _ _ r

/-! ## The second launch's payload -/

/-- The scale as the second launch's body reads it off its 1 × 1 block. -/
def scaleAt (v0 : FVec Ideal S1x1 .f32) : Ideal .f32 := extractAt ![0, 0] v0 inpos_S1x1_p0_0

theorem scaleAt_eq (v0 : FVec Ideal S1x1 .f32) : scaleAt v0 = v0 (ix2 (0 : Fin 1) (0 : Fin 1)) :=
  congrArg v0 (funext fun a => Fin.ext (by match a with | ⟨0, _⟩ => rfl | ⟨1, _⟩ => rfl))

/-- The code of one entry: the entry over the scale, rounded to the nearest integer (ties to even), clipped below
    at the lower bound's word and above at the upper bound's. -/
def code (y s : Ideal .f32) : Ideal .f32 :=
  FloatOps.minimumf (Scalar.ofBits .f32 0x40400000#32)
    (FloatOps.maximumf (Scalar.ofBits .f32 0xC0800000#32) (FloatOps.roundeven (FloatOps.divf y s)))

/-- Entry (p, o) of the second launch's output block: the codes of row p against column o of the transposed second
    weight, summed, times the scale, plus the bias at o. -/
theorem pay3_apply (v0 : FVec Ideal S1x1 .f32) (v2 : FVec Ideal S256x1024 .f32) (v12 : FVec Ideal S1024x4096 .bf16)
    (v17 : FVec Ideal S1x4096 .f32) (p : Fin 256) (o : Fin 4096) :
    k1_pay1 (F := Ideal) v0 v2 v12 v17 (ix2 p o)
      = (∑ k : Fin 1024, code (v2 (ix2 p k)) (scaleAt v0) * v12 (ix2 k o)) * scaleAt v0 + v17 (ix2 (0 : Fin 1) o) := by
  unfold k1_pay1
  show FloatOps.addf (FloatOps.mulf (matmul _ none _ _ _ (ix2 p o)) (scaleAt v0)) (broadcastTo S256x4096 _ _ (ix2 p o)) = _
  rw [shapeCast_self, shapeCast_self, shapeCast_self, dot1_eq]
  rw [broadcastTo_1b_ab_apply v17 broadcasts_S1x4096_S256x4096 p o]
  exact congrArg (fun z : EReal => z * scaleAt v0 + v17 (ix2 (0 : Fin 1) o))
    (Cert.PlainMatmul.matmul_zero_apply 256 1024 4096 none _ v12 p o)

end Cert.KernelIdeal.Pay

end
-- ==== Proof.Region0.lean ====
/-
  What the first launch leaves in its two output arrays, as whole-array functions of what it found in its inputs.
  The grid has 16 points; point t reads rows 512·t … 512·t + 511 of the activations and the whole transposed
  first weight, and writes back rows 512·t … 512·t + 511 of the product and rows 8·t … 8·t + 7 of the array of
  maxima. Entry (i, r) of the product is the sum over k of x (i, k) · b (k, r), whichever block i falls in; every
  entry of rows 8·t … 8·t + 7 of the maxima is the largest absolute entry of product rows 512·t … 512·t + 511.
  The 16 blocks fill each array, so each array is the one function everywhere.
-/
import proofs.«113571_j23596550324368_2_alg».proof.Proof.Gen.KernelIdeal.Frame
import proofs.«113571_j23596550324368_2_alg».proof.Proof.Payloads
import Idealize.ShloMosaic.Lib.Pipeline.Value

set_option maxRecDepth 16384

noncomputable section

namespace Cert.KernelIdeal.R0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- An index's row and column as numbers below the literal extents. -/
abbrev row {n0 n1 : Nat} (i : (⟨2, ![n0, n1]⟩ : Shape).Idx) : Fin n0 := ⟨(i 0).val, idx2_lt0 i⟩
abbrev col {n0 n1 : Nat} (i : (⟨2, ![n0, n1]⟩ : Shape).Idx) : Fin n1 := ⟨(i 1).val, idx2_lt1 i⟩

/-- The first launch's index maps, decided over its 16 points: the activations, the product and the maxima move
    down one block per point; the weight stays; nothing moves sideways. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The product array: entry (i, r) is the sum over k of x (i, k) · b (k, r). -/
def prodArr (X : S8192x4096.Idx → EReal) (Bt : S4096x1024.Idx → EReal) : S8192x1024.Idx → EReal :=
  fun i => ∑ k : Fin 4096, X (ix2 (row i) k) * Bt (ix2 k (col i))

/-- Entry y of the product block at point t is the product array at the image of y under block t. -/
theorem pay1_block (c : Dev nD) (t : Fin cfg0.N) (j : S512x1024.Idx) :
    k0_pay1 (F := Ideal) (iblk0 V c 0 t) (iblk0 V c 1 t) j
      = prodArr (V c main_arg0) (V c main_v1) (((cfg0.win 2).blk t).view.emb j) := by
  obtain ⟨e00, e01, e10, e11, e20, e21, -, -⟩ := idx0 t
  refine (congrArg (k0_pay1 (F := Ideal) (iblk0 V c 0 t) (iblk0 V c 1 t)) (eq_ix2 (n0 := 512) (n1 := 1024) j)).trans ?_
  refine (pay1_apply (iblk0 V c 0 t) (iblk0 V c 1 t) (j 0) (j 1)).trans ?_
  unfold prodArr
  refine Finset.sum_congr rfl fun k _ => ?_
  have hl : ((cfg0.win 0).blk t).view.emb (ix2 (j 0) k) = ix2 (row (((cfg0.win 2).blk t).view.emb j)) k := by
    funext a; apply Fin.ext
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 4096 + 1 * k.val = k.val
      omega
  have hr : ((cfg0.win 1).blk t).view.emb (ix2 k (j 1)) = ix2 k (col (((cfg0.win 2).blk t).view.emb j)) := by
    funext a; apply Fin.ext
    match a with
    | ⟨0, _⟩ =>
      show win0_1.index t (0 : Fin 2) * 4096 + 1 * k.val = k.val
      omega
    | ⟨1, _⟩ =>
      show win0_1.index t (1 : Fin 2) * 1024 + 1 * (j 1).val = win0_2.index t (1 : Fin 2) * 1024 + 1 * (j 1).val
      omega
  exact congrArg₂ (fun a b : EReal => a * b)
    (congrArg (V c main_arg0 : S8192x4096.Idx → EReal) hl) (congrArg (V c main_v1 : S4096x1024.Idx → EReal) hr)

/-- What point t writes back into the product array is block t of the product array. -/
theorem flushed2 (c : Dev nD) (t : Fin cfg0.N) :
    (dat0 V c).flushed 2 t = ((cfg0.win 2).blk t).view.read (Elt Ideal) (prodArr (V c main_arg0) (V c main_v1)) := by
  show (cfg0.win 2).cut (grid0.coords t) ((dat0 V c).after 2 t) = _
  rw [after0_2]
  unfold out0_2
  rw [View.canon_unit_zero hz]
  simp only [View.ld_unit_zero (S := S512x4096) hz, View.ld_unit_zero (S := S4096x1024) hz]
  funext j
  exact pay1_block V c t j

/-- An index of the product array is in point t's block iff each coordinate is in the block's range on its axis. -/
theorem mem_blk2 (t : Fin cfg0.N) (i : S8192x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v5_0).slice (win0_2.rect t)).set ↔ _
  rw [View.set_slice_whole, Rect.mem_set_unit]
  exact Iff.rfl

/-- Every row of the product array is in some point's block: row i is in block i / 512. -/
theorem cover2 (i : S8192x1024.Idx) : ∃ t : Fin cfg0.N, (cfg0.win 2).flush t = true ∧ i ∈ ((cfg0.win 2).blk t).view.set := by
  have hi0 : (i 0).val < 8192 := idx2_lt0 i
  have hi1 : (i 1).val < 1024 := idx2_lt1 i
  have ht : (i 0).val / 512 < 16 := by omega
  refine ⟨⟨(i 0).val / 512, ht⟩, flush0_2 _, ?_⟩
  rw [mem_blk2]
  obtain ⟨-, -, -, -, e20, e21, -, -⟩ := idx0 ⟨(i 0).val / 512, ht⟩
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e20]
    show (i 0).val / 512 * 512 ≤ (i 0).val ∧ (i 0).val < (i 0).val / 512 * 512 + 512
    omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    rw [e21]
    omega

/-- THE PRODUCT ARRAY after the first launch: the product of what the launch found in its two inputs. -/
theorem final2 (c : Dev nD) : (dat0 V c).arrAt 2 cfg0.N = prodArr (V c main_arg0) (V c main_v1) :=
  (dat0 V c).arrAt_eq_of_cover 2 (prodArr (V c main_arg0) (V c main_v1)) (fun t _ => flushed2 V c t) cover2

/-! ## The array of maxima -/

/-- The largest absolute entry among rows 512·t … 512·t + 511 of an 8192 × 1024 array, rows first. -/
def tileMax (Y : S8192x1024.Idx → EReal) (t : Fin 16) : EReal :=
  (Finset.univ : Finset (Fin 512)).fold max negInf fun r =>
    (Finset.univ : Finset (Fin 1024)).fold max negInf fun q =>
      FloatOps.absf (F := Ideal) (φ := .f32) (Y (ix2 (⟨512 * t.val + r.val, by have := t.isLt; have := r.isLt; omega⟩ : Fin 8192) q))

/-- The array of maxima: every entry of rows 8·t … 8·t + 7 is the largest absolute entry of block t of Y. -/
def maxArr (Y : S8192x1024.Idx → EReal) : S128x128.Idx → EReal :=
  fun j => tileMax Y ⟨(j 0).val / 8, by have := idx2_lt0 j; omega⟩

/-- What point t writes back into the array of maxima is block t of `maxArr` of the product array. -/
theorem flushed3 (c : Dev nD) (t : Fin cfg0.N) :
    (dat0 V c).flushed 3 t
      = ((cfg0.win 3).blk t).view.read (Elt Ideal) (maxArr (prodArr (V c main_arg0) (V c main_v1))) := by
  show (cfg0.win 3).cut (grid0.coords t) ((dat0 V c).after 3 t) = _
  rw [after0_3]
  unfold out0_3
  rw [View.canon_unit_zero hz]
  simp only [View.ld_unit_zero (S := S512x4096) hz, View.ld_unit_zero (S := S4096x1024) hz]
  obtain ⟨-, -, -, -, e20, e21, e30, e31⟩ := idx0 t
  funext j
  show k0_pay2 (F := Ideal) (iblk0 V c 0 t) (iblk0 V c 1 t) j
    = maxArr (prodArr (V c main_arg0) (V c main_v1)) (((cfg0.win 3).blk t).view.emb j)
  refine (congrArg (k0_pay2 (F := Ideal) (iblk0 V c 0 t) (iblk0 V c 1 t)) (eq_ix2 (n0 := 8) (n1 := 128) j)).trans ?_
  refine (pay2_apply (iblk0 V c 0 t) (iblk0 V c 1 t) (j 0) (j 1)).trans ?_
  unfold blockMax maxArr tileMax
  refine congrArg (fun f => Finset.fold max negInf f (Finset.univ : Finset (Fin 512))) (funext fun r => ?_)
  refine congrArg (fun f => Finset.fold max negInf f (Finset.univ : Finset (Fin 1024))) (funext fun q => ?_)
  refine congrArg (fun z : Ideal .f32 => (FloatOps.absf z : Ideal .f32)) ?_
  refine (pay1_block V c t (ix2 r q)).trans (congrArg (prodArr (V c main_arg0) (V c main_v1)) ?_)
  have hj : (j 0).val < 8 := (j 0).isLt
  have ht : t.val < 16 := t.isLt
  funext a; apply Fin.ext
  match a with
  | ⟨0, _⟩ =>
    show win0_2.index t (0 : Fin 2) * 512 + 1 * r.val
      = 512 * ((win0_3.index t (0 : Fin 2) * 8 + 1 * (j 0).val) / 8) + r.val
    rw [e20, e30]
    omega
  | ⟨1, _⟩ =>
    show win0_2.index t (1 : Fin 2) * 1024 + 1 * q.val = q.val
    omega

/-- An index of the array of maxima is in point t's block iff each coordinate is in the block's range. -/
theorem mem_blk3 (t : Fin cfg0.N) (i : S128x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v5_1).slice (win0_3.rect t)).set ↔ _
  rw [View.set_slice_whole, Rect.mem_set_unit]
  exact Iff.rfl

/-- Every row of the array of maxima is in some point's block: row i is in block i / 8. -/
theorem cover3 (i : S128x128.Idx) : ∃ t : Fin cfg0.N, (cfg0.win 3).flush t = true ∧ i ∈ ((cfg0.win 3).blk t).view.set := by
  have hi0 : (i 0).val < 128 := idx2_lt0 i
  have hi1 : (i 1).val < 128 := idx2_lt1 i
  have ht : (i 0).val / 8 < 16 := by omega
  refine ⟨⟨(i 0).val / 8, ht⟩, flush0_3 _, ?_⟩
  rw [mem_blk3]
  obtain ⟨-, -, -, -, -, -, e30, e31⟩ := idx0 ⟨(i 0).val / 8, ht⟩
  intro a
  match a with
  | ⟨0, _⟩ =>
    show win0_3.index ⟨(i 0).val / 8, ht⟩ (0 : Fin 2) * 8 ≤ (i 0).val
      ∧ (i 0).val < win0_3.index ⟨(i 0).val / 8, ht⟩ (0 : Fin 2) * 8 + 8
    rw [e30]
    show (i 0).val / 8 * 8 ≤ (i 0).val ∧ (i 0).val < (i 0).val / 8 * 8 + 8
    omega
  | ⟨1, _⟩ =>
    show win0_3.index ⟨(i 0).val / 8, ht⟩ (1 : Fin 2) * 128 ≤ (i 1).val
      ∧ (i 1).val < win0_3.index ⟨(i 0).val / 8, ht⟩ (1 : Fin 2) * 128 + 128
    rw [e31]
    omega

/-- THE ARRAY OF MAXIMA after the first launch. -/
theorem final3 (c : Dev nD) :
    (dat0 V c).arrAt 3 cfg0.N = maxArr (prodArr (V c main_arg0) (V c main_v1)) :=
  (dat0 V c).arrAt_eq_of_cover 3 (maxArr (prodArr (V c main_arg0) (V c main_v1))) (fun t _ => flushed3 V c t) cover3

end Cert.KernelIdeal.R0

end
-- ==== Proof.Region1.lean ====
/-
  What the second launch leaves in the result array, as a whole-array function of what it found in its four
  inputs. The grid has 32 points; point t reads rows 256·t … 256·t + 255 of the first product, the scale's 1 × 1
  array, the whole transposed second weight and the bias row, and writes back rows 256·t … 256·t + 255 of the result.
  Entry (i, o) of the result is the sum over k of code (y (i, k)) · a (k, o), times the scale, plus the bias at o,
  where the code of an entry is the entry over the scale, rounded to the nearest integer and clipped. The 32 blocks
  fill the result, so it is that one function everywhere.
-/
import proofs.«113571_j23596550324368_2_alg».proof.Proof.Gen.KernelIdeal.Frame
import proofs.«113571_j23596550324368_2_alg».proof.Proof.Payloads
import Idealize.ShloMosaic.Lib.Pipeline.Value

set_option maxRecDepth 16384

noncomputable section

namespace Cert.KernelIdeal.R1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- An index's row and column as numbers below the literal extents. -/
abbrev row {n0 n1 : Nat} (i : (⟨2, ![n0, n1]⟩ : Shape).Idx) : Fin n0 := ⟨(i 0).val, idx2_lt0 i⟩
abbrev col {n0 n1 : Nat} (i : (⟨2, ![n0, n1]⟩ : Shape).Idx) : Fin n1 := ⟨(i 1).val, idx2_lt1 i⟩

/-- The second launch's index maps, decided over its 32 points: the product and the result move down one block
    per point; the scale, the weight and the bias stay; nothing moves sideways. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The result array: entry (i, o) is (Σₖ code (y (i, k)) · a (k, o)) · s + b (o), s the scale. -/
def outArr (Y : S8192x1024.Idx → EReal) (s11 : S1x1.Idx → EReal) (At : S1024x4096.Idx → EReal)
    (b2 : S1x4096.Idx → EReal) : S8192x4096.Idx → EReal :=
  fun i => (∑ k : Fin 1024, code (Y (ix2 (row i) k)) (s11 (ix2 (0 : Fin 1) (0 : Fin 1))) * At (ix2 k (col i)))
    * s11 (ix2 (0 : Fin 1) (0 : Fin 1)) + b2 (ix2 (0 : Fin 1) (col i))

/-- Entry j of the output block at point t is the result array at the image of j under block t. -/
theorem pay3_block (c : Dev nD) (t : Fin cfg1.N) (j : S256x4096.Idx) :
    k1_pay1 (F := Ideal) (iblk1 V c 1 t) (iblk1 V c 0 t) (iblk1 V c 2 t) (iblk1 V c 3 t) j
      = outArr (V c main_v5_0) (V c main_v10) (V c main_v3) (V c main_v4) (((cfg1.win 4).blk t).view.emb j) := by
  obtain ⟨e00, e01, e10, e11, e20, e21, e30, e31, e40, e41⟩ := idx1 t
  refine (congrArg (k1_pay1 (F := Ideal) (iblk1 V c 1 t) (iblk1 V c 0 t) (iblk1 V c 2 t) (iblk1 V c 3 t))
    (eq_ix2 (n0 := 256) (n1 := 4096) j)).trans ?_
  refine (pay3_apply (iblk1 V c 1 t) (iblk1 V c 0 t) (iblk1 V c 2 t) (iblk1 V c 3 t) (j 0) (j 1)).trans ?_
  rw [scaleAt_eq]
  have hs : iblk1 V c 1 t (ix2 (0 : Fin 1) (0 : Fin 1)) = (V c main_v10 : S1x1.Idx → EReal) (ix2 (0 : Fin 1) (0 : Fin 1)) := by
    refine congrArg (V c main_v10 : S1x1.Idx → EReal) ?_
    funext a; apply Fin.ext
    match a with
    | ⟨0, _⟩ => show win1_1.index t (0 : Fin 2) * 1 + 1 * 0 = 0; omega
    | ⟨1, _⟩ => show win1_1.index t (1 : Fin 2) * 1 + 1 * 0 = 0; omega
  have hy : ∀ k : Fin 1024, iblk1 V c 0 t (ix2 (j 0) k)
      = (V c main_v5_0 : S8192x1024.Idx → EReal) (ix2 (row (((cfg1.win 4).blk t).view.emb j)) k) := fun k => by
    refine congrArg (V c main_v5_0 : S8192x1024.Idx → EReal) ?_
    funext a; apply Fin.ext
    match a with
    | ⟨0, _⟩ =>
      show win1_0.index t (0 : Fin 2) * 256 + 1 * (j 0).val = win1_4.index t (0 : Fin 2) * 256 + 1 * (j 0).val
      omega
    | ⟨1, _⟩ => show win1_0.index t (1 : Fin 2) * 1024 + 1 * k.val = k.val; omega
  have ha : ∀ k : Fin 1024, iblk1 V c 2 t (ix2 k (j 1))
      = (V c main_v3 : S1024x4096.Idx → EReal) (ix2 k (col (((cfg1.win 4).blk t).view.emb j))) := fun k => by
    refine congrArg (V c main_v3 : S1024x4096.Idx → EReal) ?_
    funext a; apply Fin.ext
    match a with
    | ⟨0, _⟩ => show win1_2.index t (0 : Fin 2) * 1024 + 1 * k.val = k.val; omega
    | ⟨1, _⟩ =>
      show win1_2.index t (1 : Fin 2) * 4096 + 1 * (j 1).val = win1_4.index t (1 : Fin 2) * 4096 + 1 * (j 1).val
      omega
  have hb : iblk1 V c 3 t (ix2 (0 : Fin 1) (j 1))
      = (V c main_v4 : S1x4096.Idx → EReal) (ix2 (0 : Fin 1) (col (((cfg1.win 4).blk t).view.emb j))) := by
    refine congrArg (V c main_v4 : S1x4096.Idx → EReal) ?_
    funext a; apply Fin.ext
    match a with
    | ⟨0, _⟩ => show win1_3.index t (0 : Fin 2) * 1 + 1 * 0 = 0; omega
    | ⟨1, _⟩ =>
      show win1_3.index t (1 : Fin 2) * 4096 + 1 * (j 1).val = win1_4.index t (1 : Fin 2) * 4096 + 1 * (j 1).val
      omega
  unfold outArr
  rw [hs, hb]
  refine congrArg (fun z : EReal => z * (V c main_v10 : S1x1.Idx → EReal) (ix2 (0 : Fin 1) (0 : Fin 1))
    + (V c main_v4 : S1x4096.Idx → EReal) (ix2 (0 : Fin 1) (col (((cfg1.win 4).blk t).view.emb j)))) ?_
  exact Finset.sum_congr rfl fun k _ => by rw [hy k, ha k]

/-- What point t writes back into the result is block t of the result array. -/
theorem flushed4 (c : Dev nD) (t : Fin cfg1.N) :
    (dat1 V c).flushed 4 t = ((cfg1.win 4).blk t).view.read (Elt Ideal)
      (outArr (V c main_v5_0) (V c main_v10) (V c main_v3) (V c main_v4)) := by
  show (cfg1.win 4).cut (grid1.coords t) ((dat1 V c).after 4 t) = _
  rw [after1_4]
  unfold out1_4
  rw [View.canon_unit_zero hz]
  simp only [View.ld_unit_zero (S := S256x1024) hz, View.ld_unit_zero (S := S1x1) hz,
    View.ld_unit_zero (S := S1024x4096) hz, View.ld_unit_zero (S := S1x4096) hz]
  funext j
  exact pay3_block V c t j

/-- An index of the result is in point t's block iff each coordinate is in the block's range on its axis. -/
theorem mem_blk4 (t : Fin cfg1.N) (i : S8192x4096.Idx) :
    i ∈ ((cfg1.win 4).blk t).view.set ↔ ∀ a : Fin 2, win1_4.index t a * S256x4096.size a ≤ (i a).val
      ∧ (i a).val < win1_4.index t a * S256x4096.size a + S256x4096.size a := by
  show i ∈ ((View.whole main_v11).slice (win1_4.rect t)).set ↔ _
  rw [View.set_slice_whole, Rect.mem_set_unit]
  exact Iff.rfl

/-- Every row of the result is in some point's block: row i is in block i / 256. -/
theorem cover4 (i : S8192x4096.Idx) : ∃ t : Fin cfg1.N, (cfg1.win 4).flush t = true ∧ i ∈ ((cfg1.win 4).blk t).view.set := by
  have hi0 : (i 0).val < 8192 := idx2_lt0 i
  have hi1 : (i 1).val < 4096 := idx2_lt1 i
  have ht : (i 0).val / 256 < 32 := by omega
  refine ⟨⟨(i 0).val / 256, ht⟩, flush1_4 _, ?_⟩
  rw [mem_blk4]
  obtain ⟨-, -, -, -, -, -, -, -, e40, e41⟩ := idx1 ⟨(i 0).val / 256, ht⟩
  intro a
  match a with
  | ⟨0, _⟩ =>
    show win1_4.index ⟨(i 0).val / 256, ht⟩ (0 : Fin 2) * 256 ≤ (i 0).val
      ∧ (i 0).val < win1_4.index ⟨(i 0).val / 256, ht⟩ (0 : Fin 2) * 256 + 256
    rw [e40]
    show (i 0).val / 256 * 256 ≤ (i 0).val ∧ (i 0).val < (i 0).val / 256 * 256 + 256
    omega
  | ⟨1, _⟩ =>
    show win1_4.index ⟨(i 0).val / 256, ht⟩ (1 : Fin 2) * 4096 ≤ (i 1).val
      ∧ (i 1).val < win1_4.index ⟨(i 0).val / 256, ht⟩ (1 : Fin 2) * 4096 + 4096
    rw [e41]
    omega

/-- THE RESULT after the second launch. -/
theorem final4 (c : Dev nD) :
    (dat1 V c).arrAt 4 cfg1.N = outArr (V c main_v5_0) (V c main_v10) (V c main_v3) (V c main_v4) :=
  (dat1 V c).arrAt_eq_of_cover 4 (outArr (V c main_v5_0) (V c main_v10) (V c main_v3) (V c main_v4))
    (fun t _ => flushed4 V c t) cover4

end Cert.KernelIdeal.R1

end
-- ==== Proof.KernelValue.lean ====
/-
  The idealized kernel's result as ONE function of the four argument arrays. With x the activations, B and A the
  two weights and b the bias: Y = x · Bᵀ; each block of 512 rows of Y contributes its largest absolute entry; the
  scale s is formed from the maximum of those; and the result is (code(Y / s) · Aᵀ) · s + b, the codes being Y / s
  rounded to the nearest integer and clipped. Every weakly fair execution of the program ends with the result
  buffer at that function of the launch contents of the arguments, and the arguments unchanged.
-/
import proofs.«113571_j23596550324368_2_alg».proof.Proof.KernelRun
import proofs.«113571_j23596550324368_2_alg».proof.Proof.Boundaries
import proofs.«113571_j23596550324368_2_alg».proof.Proof.Region0
import proofs.«113571_j23596550324368_2_alg».proof.Proof.Region1

set_option maxRecDepth 16384

noncomputable section

namespace Cert.KernelIdeal.KV

open Cert.KernelIdeal Cert.KernelIdeal.Gen
open Idealize.ShloMosaic Idealize.ShloMosaic.TcCoe Idealize.SL.Sem

/-- The transposed first weight, as the first launch finds it. -/
def bT (x1 : S1024x4096.Idx → EReal) : S4096x1024.Idx → EReal :=
  truncf (F := Ideal) .bf16 (transpose S4096x1024 [1, 0] x1 transposes_S1024x4096_S4096x1024_1_0) bitsLt_bf16_f32

/-- The transposed second weight, as the second launch finds it. -/
def aT (x2 : S4096x1024.Idx → EReal) : S1024x4096.Idx → EReal :=
  truncf (F := Ideal) .bf16 (transpose S1024x4096 [1, 0] x2 transposes_S4096x1024_S1024x4096_1_0) bitsLt_bf16_f32

/-- The scale's 1 × 1 array, from the first product. -/
def scale11 (Y : S8192x1024.Idx → EReal) : S1x1.Idx → EReal :=
  shapeCast S1x1 (Bdry.scaleOf (F := Ideal) (R0.maxArr Y)) shapeCasts_S_S1x1

/-- The kernel's result as a function of the four argument arrays. -/
def kernelOut (x0 : S8192x4096.Idx → EReal) (x1 : S1024x4096.Idx → EReal) (x2 : S4096x1024.Idx → EReal)
    (x3 : S4096.Idx → EReal) : S8192x4096.Idx → EReal :=
  R1.outArr (R0.prodArr x0 (bT x1)) (scale11 (R0.prodArr x0 (bT x1))) (aT x2)
    (shapeCast S1x4096 x3 shapeCasts_S4096_S1x4096)

variable (m : (ℓ : Loc nD τ sig) → Buf (Elt Ideal) ℓ) (ρ : Dev nD → PrngReg)

/-- The first product as the second launch finds it. -/
theorem prod_eq (c : Dev nD) : (V3 m ρ c main_v5_0 : S8192x1024.Idx → EReal)
    = R0.prodArr (m ((c : Thread nD τ).loc main_arg0)) (bT (m ((c : Thread nD τ).loc main_arg1))) := by
  rw [Bdry.V3_v5_0 m ρ c, R0.final2 (V1 m ρ) c, Bdry.V1_arg0 m ρ c, Bdry.V1_v1 m ρ c]
  rfl

/-- The scale's array as the second launch finds it. -/
theorem scale_eq (c : Dev nD) : (V3 m ρ c main_v10 : S1x1.Idx → EReal)
    = scale11 (R0.prodArr (m ((c : Thread nD τ).loc main_arg0)) (bT (m ((c : Thread nD τ).loc main_arg1)))) := by
  rw [Bdry.V3_v10 m ρ c, R0.final3 (V1 m ρ) c, Bdry.V1_arg0 m ρ c, Bdry.V1_v1 m ρ c]
  rfl

/-- The last boundary's contents of the result buffer are the kernel's function of the launch contents of the
    arguments. -/
theorem W4_result (c : Dev nD) : (W4 m ρ c (Proc.devRef .tc main_v11) : S8192x4096.Idx → EReal)
    = kernelOut (m ((c : Thread nD τ).loc main_arg0)) (m ((c : Thread nD τ).loc main_arg1))
        (m ((c : Thread nD τ).loc main_arg2)) (m ((c : Thread nD τ).loc main_arg3)) := by
  refine (W4_arr m ρ c 4).trans ?_
  rw [R1.final4 (V3 m ρ) c, prod_eq m ρ c, scale_eq m ρ c, Bdry.V3_v3 m ρ c, Bdry.V3_v4 m ρ c]
  rfl

/-- THE KERNEL'S RUN: every weakly fair execution terminates, nothing faulting, with the result buffer at
    `kernelOut` of the launch contents of the arguments, and the arguments unchanged. -/
theorem run : θ_run defs (onTc (τ := τ) (main (F := Ideal))) ⟨m, fun _ => 0, ρ⟩ (fun r => ∀ c : Dev nD,
      r.2.mem ((c.tc : Thread nD τ).loc main_v11)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (W4_result m ρ c), (h c).2⟩) (Run.run_result m ρ)

end Cert.KernelIdeal.KV

end
-- ==== Proof.QuantMath.lean ====
/-
  The mathematics the two programs differ by, over the extended reals and abstract finite index types.

  * A maximum taken block by block and then over the blocks is the maximum over everything: both are the least
    number above the common initial value and above every entry, so each is below the other. Nothing is asked of
    the initial value.
  * A real scale factor moves across a finite sum of products of reals: (Σ qₖ aₖ) · s = Σ (qₖ · s) aₖ. On the
    extended reals this needs every number involved to be real (at infinities the products and the sum
    of both signs do not distribute), which is what the finiteness lemmas below supply: a clipped value is real
    whatever was clipped; a finite sum of products of reals is real; a maximum over a nonempty family of reals
    from minus infinity is real; and the scale formed from it, max(a · 1, floor) / 3, is real.
-/
import Idealize.ShloMosaic.PureOps.Ideal.Laws

noncomputable section

namespace Cert.QMath

open Finset

/-! ## A maximum regrouped -/

/-- Two families with one initial value have one maximum when each entry of the second is below the first's
    maximum and each entry of the first is below some entry of the second. -/
theorem fold_max_regroup {α β : Type} (s : Finset α) (t : Finset β) (b : EReal) (f : α → EReal) (g : β → EReal)
    (hg : ∀ y ∈ t, g y ≤ s.fold max b f) (hf : ∀ x ∈ s, ∃ y ∈ t, f x ≤ g y) :
    t.fold max b g = s.fold max b f := by
  apply le_antisymm
  · exact (Finset.fold_max_le _).mpr ⟨(Finset.le_fold_max _).mpr (Or.inl le_rfl), hg⟩
  · refine (Finset.fold_max_le _).mpr ⟨(Finset.le_fold_max _).mpr (Or.inl le_rfl), fun x hx => ?_⟩
    obtain ⟨y, hy, hxy⟩ := hf x hx
    exact (Finset.le_fold_max _).mpr (Or.inr ⟨y, hy, hxy⟩)

/-! ## Real numbers inside the extended reals -/

/-- An extended real is a real number. -/
def IsReal (x : EReal) : Prop := ∃ r : ℝ, x = (r : EReal)

theorem isReal_coe (r : ℝ) : IsReal (r : EReal) := ⟨r, rfl⟩

theorem isReal_of_ne {x : EReal} (ht : x ≠ ⊤) (hb : x ≠ ⊥) : IsReal x :=
  ⟨x.toReal, (EReal.coe_toReal ht hb).symm⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

theorem IsReal.abs_like {x : EReal} (f : EReal → EReal) (hf : ∀ r : ℝ, IsReal (f r)) (hx : IsReal x) : IsReal (f x) := by
  obtain ⟨a, rfl⟩ := hx; exact hf a

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of reals is real. -/
theorem isReal_sum_mul {ι : Type} (s : Finset ι) (f g : ι → EReal) (hf : ∀ k, IsReal (f k)) (hg : ∀ k, IsReal (g k)) :
    IsReal (∑ k ∈ s, f k * g k) := by
  choose f' hf' using hf
  choose g' hg' using hg
  refine ⟨∑ k ∈ s, f' k * g' k, ?_⟩
  rw [coe_sum]
  exact Finset.sum_congr rfl fun k _ => by rw [hf' k, hg' k, EReal.coe_mul]

/-- A clipped value lies between the bounds, so it is real whatever was clipped. -/
theorem isReal_clip (lo hi : ℝ) (x : EReal) : IsReal (min (hi : EReal) (max (lo : EReal) x)) := by
  refine isReal_of_ne (ne_top_of_le_ne_top (EReal.coe_ne_top hi) (min_le_left _ _)) ?_
  have hlow : min (hi : EReal) (lo : EReal) ≠ ⊥ := by
    rcases min_choice (hi : EReal) (lo : EReal) with h | h <;> rw [h]
    · exact EReal.coe_ne_bot hi
    · exact EReal.coe_ne_bot lo
  exact ne_bot_of_le_ne_bot hlow (min_le_min_left _ (le_max_left _ _))

/-- A maximum from minus infinity over a nonempty family of reals is real. -/
theorem isReal_fold_max {ι : Type} (s : Finset ι) (hs : s.Nonempty) (f : ι → EReal) (hf : ∀ i ∈ s, IsReal (f i)) :
    IsReal (s.fold max (⊥ : EReal) f) := by
  refine isReal_of_ne ?_ ?_
  · refine ne_of_lt ((Finset.fold_max_lt _).mpr ⟨bot_lt_top, fun i hi => ?_⟩)
    exact lt_top_iff_ne_top.mpr (hf i hi).ne_top
  · obtain ⟨i, hi⟩ := hs
    refine ne_of_gt ((Finset.lt_fold_max _).mpr (Or.inr ⟨i, hi, ?_⟩))
    exact bot_lt_iff_ne_bot.mpr (hf i hi).ne_bot

/-! ## The scale moved across the sum -/

/-- (Σ qₖ aₖ) · s = Σ (qₖ · s) aₖ when every qₖ, every aₖ and s are real. -/
theorem sum_mul_scale {ι : Type} (t : Finset ι) (q a : ι → EReal) (s : EReal)
    (hq : ∀ k, IsReal (q k)) (ha : ∀ k, IsReal (a k)) (hs : IsReal s) :
    (∑ k ∈ t, q k * a k) * s = ∑ k ∈ t, (q k * s) * a k := by
  choose q' hq' using hq
  choose a' ha' using ha
  obtain ⟨c, rfl⟩ := hs
  have e1 : (∑ k ∈ t, q k * a k) = ((∑ k ∈ t, q' k * a' k : ℝ) : EReal) := by
    rw [coe_sum]; exact Finset.sum_congr rfl fun k _ => by rw [hq' k, ha' k, EReal.coe_mul]
  have e2 : (∑ k ∈ t, (q k * (c : EReal)) * a k) = ((∑ k ∈ t, (q' k * c) * a' k : ℝ) : EReal) := by
    rw [coe_sum]; exact Finset.sum_congr rfl fun k _ => by rw [hq' k, ha' k, EReal.coe_mul, EReal.coe_mul]
  rw [e1, e2, ← EReal.coe_mul, Finset.sum_mul]
  exact congrArg _ (Finset.sum_congr rfl fun k _ => by ring)

end Cert.QMath

end
-- ==== Proof.Finite.lean ====
/-
  Finiteness of the float inputs, read back from the precondition on the inputs.

  The precondition asks, of each float input array, that every entry have an absolute value strictly below
  plus infinity, and takes the conjunction over all entries and over the arrays. Floats are read here as
  extended reals: a real number, or one of the two infinities. The absolute value is max(x, -x); at either
  infinity it is plus infinity, and at a real number r it is the real number |r|. So "max(x, -x) < plus
  infinity" holds exactly when x is a real number, and a precondition that evaluates to true says that every
  entry of every array is a real number. This module proves that for the first three arrays.
-/
import proofs.«113571_j23596550324368_2_alg».proof.Pre_finite_inputs
import proofs.«113571_j23596550324368_2_alg».proof.Proof.Gen.Pre_finite_inputs
import proofs.«113571_j23596550324368_2_alg».proof.Proof.QuantMath
import Idealize.ShloMosaic.Lib.ReduceAll
import Idealize.ShloMosaic.Lib.ValueIdx
import Idealize.ShloMosaic.PureOps.Ideal.Laws

set_option maxRecDepth 16384

noncomputable section

namespace Cert.Finite

open Idealize.ShloMosaic

/-- The shape of a scalar has exactly one index: an index is a function out of the empty set of axes. -/
instance subsingleton_scalar_idx : Subsingleton Cert.Pre_finite_inputs.S_.Idx :=
  ⟨fun a b => funext fun d => d.elim0⟩

/-- The 32-bit pattern with all exponent bits set and a zero fraction denotes plus infinity. -/
theorem inf_word : Ideal.ofBits .f32 0x7F800000#32 = (⊤ : EReal) := by
  simp [Ideal.ofBits, Ideal.ieee]

/-- An ordered "less than" that answers true says the left number is strictly below the right one. -/
theorem lt_of_cmp_olt {a b : EReal} (h : Ideal.cmp .olt a b = 1#1) : a < b := by
  by_contra hn
  simp [Ideal.cmp, hn] at h

/-- An extended real whose absolute value max(x, -x) is strictly below plus infinity is a real number: at
    minus infinity the negation is plus infinity, at plus infinity the number itself is, and in both cases the
    maximum is plus infinity, which is not below itself; the only case left is a real number. -/
theorem isReal_of_abs_lt_top (x : EReal) (h : max x (-x) < ⊤) : Cert.QMath.IsReal x := by
  induction x using EReal.rec with
  | bot => exact absurd h (by simp)
  | coe r => exact Cert.QMath.isReal_coe r
  | top => exact absurd h (by simp)

/-- One array of the precondition. Over any shape: if the conjunction over all entries of
    "the absolute value of the entry is below the constant 0x7F800000" is true, every entry is a real number.
    The conjunction being true gives the comparison at each entry; the constant is plus infinity; and an
    absolute value below plus infinity belongs to a real number. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, Cert.QMath.IsReal (x i) := by
  intro i
  have hi := Host.reduce_andi_all _ _ hr hu ValueIdx.ix0 e i
  have hlt : max (x i) (-(x i)) < Ideal.ofBits .f32 0x7F800000#32 := lt_of_cmp_olt hi
  rw [inf_word] at hlt
  exact isReal_of_abs_lt_top (x i) hlt

/-- The precondition on the inputs, evaluated on extended reals, being true makes every entry of the first
    three input arrays a real number. The precondition is a conjunction of four per-array conjunctions; it is
    split into its four parts and the per-array lemma is applied to the first three. -/
theorem reals_of_pre
    (x0 : FVec Ideal Cert.Pre_finite_inputs.S8192x4096 .f32) (x1 : FVec Ideal Cert.Pre_finite_inputs.S1024x4096 .f32)
    (x2 : FVec Ideal Cert.Pre_finite_inputs.S4096x1024 .f32) (x3 : FVec Ideal Cert.Pre_finite_inputs.S4096 .f32)
    (h : Cert.Pre_finite_inputs.fn (F := Ideal) x0 x1 x2 x3 = fun _ => 1#1) :
    (∀ i, Cert.QMath.IsReal (x0 i)) ∧ (∀ i, Cert.QMath.IsReal (x1 i)) ∧ (∀ i, Cert.QMath.IsReal (x2 i)) := by
  have h0 := congrFun h ValueIdx.ix0
  dsimp only [Cert.Pre_finite_inputs.fn, Cert.Pre_finite_inputs.fn_part1, andi] at h0
  obtain ⟨h012, _⟩ := IntOp.andi_eq_one.1 h0
  obtain ⟨h01, h2⟩ := IntOp.andi_eq_one.1 h012
  obtain ⟨h0', h1⟩ := IntOp.andi_eq_one.1 h01
  exact ⟨reals_of_all x0 _ _ _ h0', reals_of_all x1 _ _ _ h1, reals_of_all x2 _ _ _ h2⟩

end Cert.Finite

end
-- ==== Proof.Consts.lean ====
/-
  The float words the two programs spell, as the extended reals they denote: the initial value of every maximum is
  minus infinity; the clip bounds are the integers -4 and 3 (the reference reaches the same two numbers by converting
  the integers -4 and 3); the scale's divisor is 3 and its unit factor 1; the floor under the maximum is a finite number.
-/
import Idealize.ShloMosaic.PureOps.Ideal

noncomputable section

namespace Cert.QConsts

open Idealize.ShloMosaic

/-- The initial value of the maxima denotes minus infinity. -/
theorem ofBits_negInf : Ideal.ofBits .f32 0xFF800000#32 = (⊥ : EReal) := by
  simp [Ideal.ofBits, Ideal.ieee]

/-- The scale's unit factor denotes 1. -/
theorem ofBits_one : Ideal.ofBits .f32 0x3F800000#32 = ((1 : ℝ) : EReal) := by
  simp [Ideal.ofBits, Ideal.ieee, -EReal.coe_mul]; norm_num

/-- The scale's divisor, and the upper clip bound, denote 3. -/
theorem ofBits_three : Ideal.ofBits .f32 0x40400000#32 = ((3 : ℝ) : EReal) := by
  simp [Ideal.ofBits, Ideal.ieee, -EReal.coe_mul]; norm_num

/-- The lower clip bound denotes -4. -/
theorem ofBits_negFour : Ideal.ofBits .f32 0xC0800000#32 = ((-4 : ℝ) : EReal) := by
  simp [Ideal.ofBits, Ideal.ieee, -EReal.coe_mul]; norm_num

/-- The floor under the maximum denotes a real number. -/
theorem ofBits_floor_real : ∃ r : ℝ, Ideal.ofBits .f32 0x322BCC77#32 = (r : EReal) := by
  show ∃ r : ℝ, Ideal.ieee 8 23 (0x322BCC77#32 : BitVec 32) = (r : EReal)
  unfold Ideal.ieee
  dsimp only
  split
  · next h => exact absurd h (by decide)
  · split <;> exact ⟨_, rfl⟩

/-- The integer -4, read signed in 32 bits. -/
theorem toInt_negFour : ((4294967292#32 : BitVec 32).toInt : ℝ) = -4 := by
  norm_num [BitVec.toInt]

/-- The integer 3, read signed in 32 bits. -/
theorem toInt_three : ((3#32 : BitVec 32).toInt : ℝ) = 3 := by
  norm_num [BitVec.toInt]

end Cert.QConsts

end
-- ==== Proof.RefRead.lean ====
/-
  The reference's result, read at one index, in a normal form. With Y the first product, s the scale and
  clip (y) = min 3 (max (-4) (round (y / s))): entry (i, o) of the reference's result is
  Σₖ (clip (Y (i, k)) · s) · A (o, k) + b (o) — the codes are scaled BEFORE the second product. Also here: the
  reference's first product is the same array the kernel's first launch leaves (both are x · Bᵀ, entry by entry).
-/
import proofs.«113571_j23596550324368_2_alg».proof.Proof.Gen.ReferenceIdeal.Read
import proofs.«113571_j23596550324368_2_alg».proof.Proof.KernelValue
import proofs.«113571_j23596550324368_2_alg».proof.Proof.Consts
import Idealize.ShloMosaic.Lib.ValueLayout

set_option maxRecDepth 16384

noncomputable section

namespace Cert.RefRead

open Idealize.ShloMosaic Idealize.ShloMosaic.ValueIdx
open Cert.ReferenceIdeal.Read

/-- The clipped, rounded quotient of an entry by the scale, with the bounds as the real numbers -4 and 3. -/
def clip (y s : EReal) : EReal :=
  min ((3 : ℝ) : EReal) (max ((-4 : ℝ) : EReal) (Ideal.liftRound Ideal.roundHalfEven (Ideal.div y s)))

/-- The reference's first product is the kernel's product array of the activations and the transposed weight. -/
theorem ref_prod (x0 : Cert.KernelIdeal.S8192x4096.Idx → EReal) (x1 : Cert.KernelIdeal.S1024x4096.Idx → EReal) :
    val_main_v1 (F := Ideal) x0 x1 = Cert.KernelIdeal.R0.prodArr x0 (Cert.KernelIdeal.KV.bT x1) := by
  have hb : Cert.KernelIdeal.KV.bT x1 = val_main_v0 (F := Ideal) x1 := rfl
  funext i
  refine (val_main_v1_apply x0 x1 i).trans ?_
  unfold Cert.KernelIdeal.R0.prodArr
  rw [hb]
  refine Finset.sum_congr rfl fun k _ => ?_
  refine congrArg₂ (fun a b : EReal => a * b) (congrArg x0 ?_) (congrArg (val_main_v0 (F := Ideal) x1) ?_)
  · funext a; apply Fin.ext
    match a with
    | ⟨0, _⟩ => rfl
    | ⟨1, _⟩ => rfl
  · funext a; apply Fin.ext
    match a with
    | ⟨0, _⟩ => rfl
    | ⟨1, _⟩ => rfl

/-- The reference's scale, as a number. -/
def refScale (x0 : Cert.KernelIdeal.S8192x4096.Idx → EReal) (x1 : Cert.KernelIdeal.S1024x4096.Idx → EReal) : EReal :=
  val_main_v6 (F := Ideal) x0 x1 ix0

/-- The reference's clipped codes times the scale, at an index of the first product. -/
theorem ref_scaled_code (x0 : Cert.KernelIdeal.S8192x4096.Idx → EReal) (x1 : Cert.KernelIdeal.S1024x4096.Idx → EReal)
    (j : Cert.ReferenceIdeal.S8192x1024.Idx) :
    val_main_v12 (F := Ideal) x0 x1 j = clip (val_main_v1 (F := Ideal) x0 x1 j) (refScale x0 x1) * refScale x0 x1 := by
  have e11 : val_main_v11 (F := Ideal) x0 x1 j = refScale x0 x1 :=
    (val_main_v11_apply (F := Ideal) x0 x1 j).trans (congrArg (val_main_v6 (F := Ideal) x0 x1) (eq_ix0 _))
  have e7 : val_main_v7 (F := Ideal) x0 x1 j = refScale x0 x1 :=
    (val_main_v7_apply (F := Ideal) x0 x1 j).trans (congrArg (val_main_v6 (F := Ideal) x0 x1) (eq_ix0 _))
  have ehi : val_main_call1_v4 (F := Ideal) j = ((3 : ℝ) : EReal) := by
    refine (val_main_call1_v4_apply (F := Ideal) j).trans ?_
    show (((3#32 : BitVec 32).toInt : ℝ) : EReal) = _
    rw [Cert.QConsts.toInt_three]
  have elo : val_main_call1_v1 (F := Ideal) j = ((-4 : ℝ) : EReal) := by
    refine (val_main_call1_v1_apply (F := Ideal) j).trans ?_
    show (((4294967292#32 : BitVec 32).toInt : ℝ) : EReal) = _
    rw [Cert.QConsts.toInt_negFour]
  show val_main_v10 (F := Ideal) x0 x1 j * val_main_v11 (F := Ideal) x0 x1 j = _
  rw [e11]
  refine congrArg (fun z : EReal => z * refScale x0 x1) ?_
  show min (val_main_call1_v4 (F := Ideal) j) (max (val_main_call1_v1 (F := Ideal) j)
    (Ideal.liftRound Ideal.roundHalfEven (Ideal.div (val_main_v1 (F := Ideal) x0 x1 j) (val_main_v7 (F := Ideal) x0 x1 j)))) = _
  rw [ehi, elo, e7]
  rfl

/-- THE REFERENCE'S RESULT AT AN INDEX. -/
theorem ref_entry (x0 : Cert.KernelIdeal.S8192x4096.Idx → EReal) (x1 : Cert.KernelIdeal.S1024x4096.Idx → EReal)
    (x2 : Cert.KernelIdeal.S4096x1024.Idx → EReal) (x3 : Cert.KernelIdeal.S4096.Idx → EReal) (p : Fin 8192) (o : Fin 4096) :
    val_main_v17 (F := Ideal) x0 x1 x2 x3 (ix2 p o)
      = (∑ k : Fin 1024, (clip (val_main_v1 (F := Ideal) x0 x1 (ix2 p k)) (refScale x0 x1) * refScale x0 x1)
          * x2 (ix2 o k)) + x3 (ix1 o) := by
  show val_main_v14 (F := Ideal) x0 x1 x2 (ix2 p o) + val_main_v16 (F := Ideal) x3 (ix2 p o) = _
  refine congrArg₂ (fun a b : EReal => a + b) ?_ ?_
  · refine (val_main_v14_apply x0 x1 x2 (ix2 p o)).trans ?_
    refine Finset.sum_congr rfl fun k _ => ?_
    refine congrArg₂ (fun a b : EReal => a * b) ?_ ?_
    · have hi : lidx_main_v14 (ix2 p o) k = ix2 p k := by
        funext a; apply Fin.ext
        match a with
        | ⟨0, _⟩ => rfl
        | ⟨1, _⟩ => rfl
      rw [hi]
      exact ref_scaled_code x0 x1 (ix2 p k)
    · refine (val_main_v13_apply (F := Ideal) x2 _).trans (congrArg x2 ?_)
      funext a; apply Fin.ext
      match a with
      | ⟨0, _⟩ => rfl
      | ⟨1, _⟩ => rfl
  · refine (val_main_v16_apply (F := Ideal) x3 (ix2 p o)).trans ((val_main_v15_apply (F := Ideal) x3 _).trans (congrArg x3 ?_))
    funext a; apply Fin.ext
    match a with
    | ⟨0, _⟩ => rfl

end Cert.RefRead

end
-- ==== Proof.Amax.lean ====
/-
  The largest absolute entry of the product, two ways, and the finiteness of what is formed from it.

  * One program takes the maximum of the absolute entries of the whole 8192 × 1024 array at once. The other
    first takes, for each of 16 blocks of 512 consecutive rows, the maximum of the absolute entries of the block,
    writes that number into every entry of 8 rows of a 128 × 128 array, and then takes the maximum of that
    array. Both start from the same initial value. The two results agree: every entry of the small array is a
    maximum of absolute entries of the big one, so it is below the overall maximum; and every absolute entry of
    the big array, at row i, is below the block maximum of block i / 512, which the small array holds at row
    8 · (i / 512). Each side is therefore below the other.
  * When every entry of the big array is a real number, so is every absolute entry (the absolute value of a real
    is a real), and a maximum from minus infinity over a nonempty finite family of reals is one of them, hence
    real. So the block maxima are real, their maximum is real, and the scale max(a · 1, floor) / 3 formed from it
    is real: dividing by the real number 3 is multiplying by the real number 1/3.
-/
import proofs.«113571_j23596550324368_2_alg».proof.Proof.Region0
import proofs.«113571_j23596550324368_2_alg».proof.Proof.Boundaries
import proofs.«113571_j23596550324368_2_alg».proof.Proof.Consts
import proofs.«113571_j23596550324368_2_alg».proof.Proof.QuantMath
import Idealize.ShloMosaic.PureOps.Ideal.Laws
import Idealize.ShloMosaic.Lib.ValueIdx

set_option maxRecDepth 16384

noncomputable section

namespace Cert.Amax

open Idealize.ShloMosaic Idealize.ShloMosaic.ValueIdx
open Cert.QMath

/-- The shape of a scalar has exactly one index: an index is a function out of the empty set of axes. -/
instance subsingleton_scalar_idx : Subsingleton Cert.KernelIdeal.S_.Idx :=
  ⟨fun a b => funext fun d => d.elim0⟩

/-- The 128 × 128 array has an entry. -/
instance nonempty_small_idx : Nonempty Cert.KernelIdeal.S128x128.Idx :=
  ⟨ix2 (⟨0, by omega⟩ : Fin 128) (⟨0, by omega⟩ : Fin 128)⟩

/-- The initial value of every maximum here is minus infinity. -/
theorem negInf_eq_bot : (Cert.KernelIdeal.Pay.negInf : EReal) = ⊥ := Cert.QConsts.ofBits_negInf

/-! ## A maximum over all axes is the maximum over all entries -/

/-- Reducing an array by maximum over all its axes, into a single number, is the maximum of the initial value
    and all the entries: every index of the array contributes to the one result index. -/
theorem reduce_all_eq_fold {s : Shape} {axes : List (Fin s.rank)} (x : s.Idx → EReal)
    (init : Cert.KernelIdeal.S_.Idx → EReal) (h : s.ReducesTo axes Cert.KernelIdeal.S_)
    (hu : 0 < Cert.KernelIdeal.S_.numel) (j : Cert.KernelIdeal.S_.Idx) :
    Host.reduce (FloatOps.maximumf (F := Ideal) (φ := .f32)) x init h hu j
      = (Finset.univ : Finset s.Idx).fold max (init (Shape.Idx.first hu)) x := by
  refine (Host.reduce_eq_fold (FloatOps.maximumf (F := Ideal) (φ := .f32)) x init h hu j).trans ?_
  have e : (Finset.univ.filter fun i => h.drop i = j) = Finset.univ :=
    Finset.filter_true_of_mem fun i _ => Subsingleton.elim _ _
  rw [e]
  rfl

/-! ## The maximum regrouped by blocks of rows -/

/-- The maximum of the block maxima is the maximum of all the absolute entries, both from minus infinity's word. -/
theorem fold_core (Y : Cert.KernelIdeal.S8192x1024.Idx → EReal) :
    (Finset.univ : Finset Cert.KernelIdeal.S128x128.Idx).fold max Cert.KernelIdeal.Pay.negInf
        (Cert.KernelIdeal.R0.maxArr Y)
      = (Finset.univ : Finset Cert.KernelIdeal.S8192x1024.Idx).fold max Cert.KernelIdeal.Pay.negInf
        (Host.absf (F := Ideal) (φ := .f32) Y) := by
  refine fold_max_regroup Finset.univ Finset.univ Cert.KernelIdeal.Pay.negInf
    (Host.absf (F := Ideal) (φ := .f32) Y) (Cert.KernelIdeal.R0.maxArr Y) ?_ ?_
  · -- a block maximum is a maximum of absolute entries, each of which is below the overall maximum
    intro y _
    have hb : Cert.KernelIdeal.Pay.negInf
        ≤ (Finset.univ : Finset Cert.KernelIdeal.S8192x1024.Idx).fold max Cert.KernelIdeal.Pay.negInf
            (Host.absf (F := Ideal) (φ := .f32) Y) :=
      (Finset.le_fold_max _).mpr (Or.inl le_rfl)
    unfold Cert.KernelIdeal.R0.maxArr Cert.KernelIdeal.R0.tileMax
    refine (Finset.fold_max_le _).mpr ⟨hb, fun r _ => (Finset.fold_max_le _).mpr ⟨hb, fun q _ => ?_⟩⟩
    exact (Finset.le_fold_max _).mpr (Or.inr ⟨_, Finset.mem_univ _, le_rfl⟩)
  · -- the absolute entry at row i is below the maximum of block i / 512, held at row 8 · (i / 512)
    intro i _
    have hi0 : (i 0).val < 8192 := idx2_lt0 i
    have hi1 : (i 1).val < 1024 := idx2_lt1 i
    refine ⟨ix2 (⟨8 * ((i 0).val / 512), by omega⟩ : Fin 128) (⟨0, by omega⟩ : Fin 128), Finset.mem_univ _, ?_⟩
    unfold Cert.KernelIdeal.R0.maxArr Cert.KernelIdeal.R0.tileMax
    refine (Finset.le_fold_max _).mpr (Or.inr ⟨(⟨(i 0).val % 512, by omega⟩ : Fin 512), Finset.mem_univ _, ?_⟩)
    refine (Finset.le_fold_max _).mpr (Or.inr ⟨(⟨(i 1).val, hi1⟩ : Fin 1024), Finset.mem_univ _, ?_⟩)
    refine le_of_eq (congrArg (fun z => FloatOps.absf (F := Ideal) (φ := .f32) (Y z)) ?_)
    refine (eq_ix2 (n0 := 8192) (n1 := 1024) i).trans ?_
    refine congrArg₂ (fun (a : Fin 8192) (b : Fin 1024) => ix2 a b) (Fin.ext ?_) (Fin.ext rfl)
    show (i 0).val = 512 * (8 * ((i 0).val / 512) / 8) + (i 0).val % 512
    omega

/-- The maximum of the array of per-block maxima is the maximum of all absolute entries. -/
theorem amax_regroup (Y : Cert.KernelIdeal.S8192x1024.Idx → EReal)
    (hK : Cert.KernelIdeal.S128x128.ReducesTo [0, 1] Cert.KernelIdeal.S_)
    (hR : Cert.KernelIdeal.S8192x1024.ReducesTo [0, 1] Cert.KernelIdeal.S_)
    (hu : 0 < Cert.KernelIdeal.S_.numel) :
    Host.reduce (FloatOps.maximumf (F := Ideal) (φ := .f32)) (Cert.KernelIdeal.R0.maxArr Y)
        (constant (F := Ideal) Cert.KernelIdeal.S_ .f32 0xFF800000#32) hK hu
      = Host.reduce (FloatOps.maximumf (F := Ideal) (φ := .f32)) (Host.absf (F := Ideal) Y)
        (constant (F := Ideal) Cert.KernelIdeal.S_ .f32 0xFF800000#32) hR hu := by
  funext j
  refine (reduce_all_eq_fold _ _ hK hu j).trans ?_
  refine Eq.trans ?_ (reduce_all_eq_fold _ _ hR hu j).symm
  exact fold_core Y

/-! ## Finiteness -/

/-- The absolute value of a real number is a real number: it is the larger of r and -r. -/
theorem abs_real {x : EReal} (h : IsReal x) : IsReal (FloatOps.absf (F := Ideal) (φ := .f32) x) := by
  obtain ⟨r, rfl⟩ := h
  show IsReal (max (r : EReal) (-(r : EReal)))
  exact IsReal.max (isReal_coe r) ⟨-r, (EReal.coe_neg r).symm⟩

/-- A maximum of maxima, both from minus infinity, over two nonempty finite families of reals is real. -/
theorem isReal_fold_fold {α β : Type} [Fintype α] [Fintype β] [Nonempty α] [Nonempty β] (b : EReal) (hb : b = ⊥)
    (f : α → β → EReal) (hf : ∀ a c, IsReal (f a c)) :
    IsReal ((Finset.univ : Finset α).fold max b fun a => (Finset.univ : Finset β).fold max b fun c => f a c) := by
  subst hb
  exact isReal_fold_max _ Finset.univ_nonempty _ fun a _ =>
    isReal_fold_max _ Finset.univ_nonempty _ fun c _ => hf a c

/-- The per-block maxima of an array of reals are real. -/
theorem maxArr_real (Y : Cert.KernelIdeal.S8192x1024.Idx → EReal) (hY : ∀ i, Cert.QMath.IsReal (Y i)) :
    ∀ j, Cert.QMath.IsReal (Cert.KernelIdeal.R0.maxArr Y j) := by
  intro j
  unfold Cert.KernelIdeal.R0.maxArr Cert.KernelIdeal.R0.tileMax
  exact isReal_fold_fold (α := Fin 512) (β := Fin 1024) Cert.KernelIdeal.Pay.negInf negInf_eq_bot _
    fun _ _ => abs_real (hY _)

/-- The maximum over all entries of a nonempty array of reals, from minus infinity's word, is real. -/
theorem reduce_real {s : Shape} {axes : List (Fin s.rank)} [Nonempty s.Idx] (T : s.Idx → EReal)
    (hT : ∀ j, IsReal (T j)) (h : s.ReducesTo axes Cert.KernelIdeal.S_) (hu : 0 < Cert.KernelIdeal.S_.numel)
    (j : Cert.KernelIdeal.S_.Idx) :
    IsReal (Host.reduce (FloatOps.maximumf (F := Ideal) (φ := .f32)) T
      (constant (F := Ideal) Cert.KernelIdeal.S_ .f32 0xFF800000#32) h hu j) := by
  refine (reduce_all_eq_fold T _ h hu j).symm ▸ ?_
  have hb : constant (F := Ideal) Cert.KernelIdeal.S_ .f32 0xFF800000#32 (Shape.Idx.first hu) = (⊥ : EReal) :=
    Cert.QConsts.ofBits_negInf
  rw [hb]
  exact isReal_fold_max _ Finset.univ_nonempty _ fun i _ => hT i

/-- From a real a, the number max(a · 1, floor) / 3 with a real floor is real: products and maxima of reals are
    real, and dividing by 3 is multiplying by the real number 1/3. -/
theorem scale_core {a one fl three : EReal} (ha : IsReal a) (h1 : one = ((1 : ℝ) : EReal)) (hfl : IsReal fl)
    (h3 : three = ((3 : ℝ) : EReal)) : IsReal (Ideal.div (max (a * one) fl) three) := by
  subst h1 h3
  rw [Ideal.div_coe (by norm_num : (3 : ℝ) ≠ 0)]
  exact IsReal.mul (IsReal.max (IsReal.mul ha (isReal_coe 1)) hfl) (isReal_coe _)

/-- The scale formed from a real array of maxima is real. -/
theorem scale_real (T : Cert.KernelIdeal.S128x128.Idx → EReal) (hT : ∀ j, Cert.QMath.IsReal (T j)) :
    Cert.QMath.IsReal (Cert.KernelIdeal.Bdry.scaleOf (F := Ideal) T ValueIdx.ix0) :=
  scale_core (reduce_real T hT _ _ _) Cert.QConsts.ofBits_one Cert.QConsts.ofBits_floor_real Cert.QConsts.ofBits_three

end Cert.Amax

end
-- ==== Proof.Bridge.lean ====
/-
  The two results are one function of the arguments when the activations and the two weights are real.
  Both programs form the same first product Y and, because a maximum taken block by block is the maximum over all,
  the same scale s. Entry (i, o) of the kernel's result is (Σₖ clip (Y (i, k)) · A (o, k)) · s + b (o); the
  reference's is Σₖ (clip (Y (i, k)) · s) · A (o, k) + b (o). The clipped codes lie between -4 and 3, so they are real
  whatever was clipped; A is real by assumption; and s is real because Y is (a finite sum of products of reals), so
  are the block maxima, and so is max(max · 1, floor) / 3. Among reals the scale moves across the sum. The bias is
  added on both sides and need not be real.
-/
import proofs.«113571_j23596550324368_2_alg».proof.Proof.RefRead
import proofs.«113571_j23596550324368_2_alg».proof.Proof.Amax
import proofs.«113571_j23596550324368_2_alg».proof.Proof.QuantMath

set_option maxRecDepth 16384

noncomputable section

namespace Cert.Bridge

open Idealize.ShloMosaic Idealize.ShloMosaic.ValueIdx
open Cert.ReferenceIdeal.Read Cert.RefRead Cert.QMath

/-- The kernel's scale is the reference's: same chain of operations on the maximum, and the maximum of the
    per-block maxima is the maximum of all absolute entries. -/
theorem scale_eq (x0 : Cert.KernelIdeal.S8192x4096.Idx → EReal) (x1 : Cert.KernelIdeal.S1024x4096.Idx → EReal) :
    Cert.KernelIdeal.Bdry.scaleOf (F := Ideal) (Cert.KernelIdeal.R0.maxArr (val_main_v1 (F := Ideal) x0 x1)) = val_main_v6 (F := Ideal) x0 x1 := by
  unfold val_main_v6 val_main_v5 val_main_v4 val_main_v3 val_main_v2 val_main_cst val_main_cst_0 val_main_cst_1
    val_main_cst_2 Cert.KernelIdeal.Bdry.scaleOf
  exact congrArg (fun A : Cert.KernelIdeal.S_.Idx → EReal => Host.divf (F := Ideal) (maximumf (mulf A (constant (F := Ideal) Cert.KernelIdeal.S_ .f32 0x3F800000#32))
    (constant (F := Ideal) Cert.KernelIdeal.S_ .f32 0x322BCC77#32)) (constant (F := Ideal) Cert.KernelIdeal.S_ .f32 0x40400000#32))
    (Cert.Amax.amax_regroup (val_main_v1 (F := Ideal) x0 x1) _ _ _)

/-- The kernel's code of an entry is the clipped, rounded quotient with the bounds read as -4 and 3. -/
theorem code_eq (y s : EReal) : Cert.KernelIdeal.Pay.code y s = clip y s := by
  unfold Cert.KernelIdeal.Pay.code clip
  show min (Ideal.ofBits .f32 0x40400000#32) (max (Ideal.ofBits .f32 0xC0800000#32)
    (Ideal.liftRound Ideal.roundHalfEven (Ideal.div y s))) = _
  rw [Cert.QConsts.ofBits_three, Cert.QConsts.ofBits_negFour]

/-- The scale the second launch reads off its 1 × 1 array is the reference's scale. -/
theorem scale11_eq (x0 : Cert.KernelIdeal.S8192x4096.Idx → EReal) (x1 : Cert.KernelIdeal.S1024x4096.Idx → EReal) :
    Cert.KernelIdeal.KV.scale11 (val_main_v1 (F := Ideal) x0 x1) (ix2 (0 : Fin 1) (0 : Fin 1)) = refScale x0 x1 := by
  unfold Cert.KernelIdeal.KV.scale11 refScale
  refine (shapeCast_apply _ Cert.KernelIdeal.Gen.shapeCasts_S_S1x1 (ix2 (0 : Fin 1) (0 : Fin 1)) ix0 ?_).trans
    (congrFun (scale_eq x0 x1) ix0)
  have h0 : (Cert.KernelIdeal.S_.rowMajor ix0).val = 0 := Nat.lt_one_iff.mp (Cert.KernelIdeal.S_.rowMajor ix0).isLt
  rw [Shape.rowMajor_val_two, h0]
  rfl

/-- THE KERNEL'S RESULT AT AN INDEX, in the reference's terms: the scale applied after the sum. -/
theorem ker_entry (x0 : Cert.KernelIdeal.S8192x4096.Idx → EReal) (x1 : Cert.KernelIdeal.S1024x4096.Idx → EReal)
    (x2 : Cert.KernelIdeal.S4096x1024.Idx → EReal) (x3 : Cert.KernelIdeal.S4096.Idx → EReal) (p : Fin 8192) (o : Fin 4096) :
    Cert.KernelIdeal.KV.kernelOut x0 x1 x2 x3 (ix2 p o)
      = (∑ k : Fin 1024, clip (val_main_v1 (F := Ideal) x0 x1 (ix2 p k)) (refScale x0 x1) * x2 (ix2 o k))
          * refScale x0 x1 + x3 (ix1 o) := by
  unfold Cert.KernelIdeal.KV.kernelOut Cert.KernelIdeal.R1.outArr
  rw [← ref_prod x0 x1, scale11_eq x0 x1]
  have hrow : Cert.KernelIdeal.R1.row (ix2 p o) = p := rfl
  have hcol : Cert.KernelIdeal.R1.col (ix2 p o) = o := rfl
  rw [hrow, hcol]
  have hb : shapeCast Cert.KernelIdeal.S1x4096 x3 Cert.KernelIdeal.Gen.shapeCasts_S4096_S1x4096 (ix2 (0 : Fin 1) o) = x3 (ix1 o) :=
    shapeCast_a_1a_apply x3 _ 0 o
  rw [hb]
  refine congrArg (fun z : EReal => z * refScale x0 x1 + x3 (ix1 o)) ?_
  refine Finset.sum_congr rfl fun k _ => ?_
  rw [code_eq]
  refine congrArg (fun z : EReal => clip (val_main_v1 (F := Ideal) x0 x1 (ix2 p k)) (refScale x0 x1) * z) ?_
  show transpose Cert.KernelIdeal.S1024x4096 [1, 0] x2 Cert.KernelIdeal.Gen.transposes_S4096x1024_S1024x4096_1_0 (ix2 k o) = x2 (ix2 o k)
  exact transpose_apply [1, 0] x2 _ (ix2 k o) (ix2 o k) (fun b => match b with
    | ⟨0, _⟩ => rfl
    | ⟨1, _⟩ => rfl)

/-- The first product of real activations and a real weight is real. -/
theorem prod_real (x0 : Cert.KernelIdeal.S8192x4096.Idx → EReal) (x1 : Cert.KernelIdeal.S1024x4096.Idx → EReal)
    (h0 : ∀ i, IsReal (x0 i)) (h1 : ∀ i, IsReal (x1 i)) (j : Cert.KernelIdeal.S8192x1024.Idx) :
    IsReal (val_main_v1 (F := Ideal) x0 x1 j) := by
  rw [val_main_v1_apply]
  refine isReal_sum_mul Finset.univ _ _ (fun k => h0 _) (fun k => ?_)
  rw [val_main_v0_apply]
  exact h1 _

/-- The scale is real when the activations and the first weight are. -/
theorem scale_real (x0 : Cert.KernelIdeal.S8192x4096.Idx → EReal) (x1 : Cert.KernelIdeal.S1024x4096.Idx → EReal)
    (h0 : ∀ i, IsReal (x0 i)) (h1 : ∀ i, IsReal (x1 i)) : IsReal (refScale x0 x1) := by
  unfold refScale
  rw [← scale_eq x0 x1]
  exact Cert.Amax.scale_real _ (Cert.Amax.maxArr_real _ (prod_real x0 x1 h0 h1))

/-- THE TWO RESULTS ARE ONE FUNCTION of real activations and real weights. -/
theorem bridge (x0 : Cert.KernelIdeal.S8192x4096.Idx → EReal) (x1 : Cert.KernelIdeal.S1024x4096.Idx → EReal)
    (x2 : Cert.KernelIdeal.S4096x1024.Idx → EReal) (x3 : Cert.KernelIdeal.S4096.Idx → EReal)
    (h0 : ∀ i, IsReal (x0 i)) (h1 : ∀ i, IsReal (x1 i)) (h2 : ∀ i, IsReal (x2 i)) :
    Cert.KernelIdeal.KV.kernelOut x0 x1 x2 x3 = val_main_v17 (F := Ideal) x0 x1 x2 x3 := by
  funext i
  rw [eq_ix2 (n0 := 8192) (n1 := 4096) i]
  refine (ker_entry x0 x1 x2 x3 (i 0) (i 1)).trans (Eq.trans ?_ (ref_entry x0 x1 x2 x3 (i 0) (i 1)).symm)
  refine congrArg (fun z : EReal => z + x3 (ix1 (i 1))) ?_
  exact sum_mul_scale Finset.univ (fun k => clip (val_main_v1 (F := Ideal) x0 x1 (ix2 (i 0) k)) (refScale x0 x1))
    (fun k => x2 (ix2 (i 1) k)) (refScale x0 x1) (fun k => isReal_clip (-4) 3 _) (fun k => h2 _)
    (scale_real x0 x1 h0 h1)

end Cert.Bridge

end
-- ==== Proof.lean ====
/-
  The certificate of a low-rank linear layer with a per-tensor 3-bit quantisation between its two products.

  Both programs compute, from activations x, weights B and A and a bias b: Y = x · Bᵀ; the scale
  s = max(max |Y| · 1, floor) / 3; the codes clip(round(Y / s)) between -4 and 3; and a second product with Aᵀ plus
  b. They differ in two ways. The kernel takes the maximum of |Y| block by block (512 rows at a time, inside its
  first launch) and then over the blocks, where the reference takes it over all of Y at once: the same number,
  since either is the least upper bound of the same entries. And the kernel multiplies by s AFTER the second product,
  (Σₖ codeₖ · aₖ) · s, where the reference scales the codes first, Σₖ (codeₖ · s) · aₖ: equal when the codes, the
  weights and s are real numbers, which the precondition (every float input finite) provides — the codes are real
  because they are clipped, s because Y is a finite sum of products of reals. On the extended reals the step is
  false at infinities, so the precondition is used, for the activations and both weights; the bias is added last on
  both sides and may be anything.

  The three frame claims: the two kernels' are generated; the reference's is its generated run with the result
  dropped. Nothing was rewritten when the kernel was idealized (a change of float format is the identity on the
  extended reals), so that claim is trivially true.
-/
import proofs.«113571_j23596550324368_2_alg».proof.Defs
import proofs.«113571_j23596550324368_2_alg».proof.Proof.Gen.Kernel
import proofs.«113571_j23596550324368_2_alg».proof.Proof.Gen.Kernel.Skeleton
import proofs.«113571_j23596550324368_2_alg».proof.Proof.Gen.Kernel.Launch
import proofs.«113571_j23596550324368_2_alg».proof.Proof.Gen.Kernel.Points
import proofs.«113571_j23596550324368_2_alg».proof.Proof.Gen.Kernel.Frame
import proofs.«113571_j23596550324368_2_alg».proof.Proof.Gen.KernelIdeal
import proofs.«113571_j23596550324368_2_alg».proof.Proof.Gen.KernelIdeal.Skeleton
import proofs.«113571_j23596550324368_2_alg».proof.Proof.Gen.KernelIdeal.Launch
import proofs.«113571_j23596550324368_2_alg».proof.Proof.Gen.KernelIdeal.Points
import proofs.«113571_j23596550324368_2_alg».proof.Proof.Gen.KernelIdeal.Frame
import proofs.«113571_j23596550324368_2_alg».proof.Proof.Gen.ReferenceIdeal
import proofs.«113571_j23596550324368_2_alg».proof.Proof.Gen.ReferenceIdeal.Run
import proofs.«113571_j23596550324368_2_alg».proof.Proof.Gen.ReferenceIdeal.Read
import proofs.«113571_j23596550324368_2_alg».proof.Proof.Gen.Pre_finite_inputs
import proofs.«113571_j23596550324368_2_alg».proof.Proof.KernelValue
import proofs.«113571_j23596550324368_2_alg».proof.Proof.Finite
import proofs.«113571_j23596550324368_2_alg».proof.Proof.Bridge
import Idealize.ShloMosaic.Adequacy
import Idealize.ShloMosaic.Init

set_option maxRecDepth 16384

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories agreeing on the arguments, finite on the kernel's side, both programs end with the same result:
    the kernel's function of the arguments. -/
theorem algebraic : Cert.algebraic_KernelIdeal_ReferenceIdeal := by
  intro m ρ m' ρ' hpre hagree
  refine ⟨fun c => Cert.KernelIdeal.KV.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _ _ _).trans ?_
  rw [(hagree c).1, (hagree c).2.1, (hagree c).2.2.1, (hagree c).2.2.2]
  obtain ⟨h0, h1, h2⟩ := Cert.Finite.reals_of_pre _ _ _ _ (hpre c)
  exact (Cert.Bridge.bridge _ _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
